-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn {F : FTy → Type} [FloatOps F] (main_arg0 : FVec F S100000x64 .f32) (main_arg1 : IVec S2x1600000 32) (main_arg2 : FVec F S3x64x64 .f32) (main_arg3 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S5000x1 : Shape := ⟨2, ![5000, 1]⟩

abbrev nBuf : Space → Nat
  | .hbm => 102
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S3x64x64, .f32⟩
  | .hbm, ⟨3, _⟩ => ⟨S3x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S1x64x64, .f32⟩
  | .hbm, ⟨58, _⟩ => ⟨S64x64, .f32⟩
  | .hbm, ⟨59, _⟩ => ⟨S1x64, .f32⟩
  | .hbm, ⟨60, _⟩ => ⟨S64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S1x64x64, .f32⟩
  | .hbm, ⟨78, _⟩ => ⟨S64x64, .f32⟩
  | .hbm, ⟨79, _⟩ => ⟨S1x64, .f32⟩
  | .hbm, ⟨80, _⟩ => ⟨S64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .f32⟩
  | .hbm, ⟨93, _⟩ => ⟨S_, .f32⟩
  | .hbm, ⟨94, _⟩ => ⟨S100000x64, .f32⟩
  | .hbm, ⟨95, _⟩ => ⟨S1600000x1, .i32⟩
  | .hbm, ⟨96, _⟩ => ⟨S100000x64, .f32⟩
  | .hbm, ⟨97, _⟩ => ⟨S1x64x64, .f32⟩
  | .hbm, ⟨98, _⟩ => ⟨S64x64, .f32⟩
  | .hbm, ⟨99, _⟩ => ⟨S1x64, .f32⟩
  | .hbm, ⟨100, _⟩ => ⟨S64, .f32⟩
  | .hbm, ⟨101, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S64x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S64x64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v36) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v53) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v70) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 126
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S3x64x64, .f32⟩
  | .hbm, ⟨3, _⟩ => ⟨S3x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64x64, .f32⟩
  | .hbm, ⟨60, _⟩ => ⟨S64x64, .f32⟩
  | .hbm, ⟨61, _⟩ => ⟨S100000x64, .f32⟩
  | .hbm, ⟨62, _⟩ => ⟨S1x64, .f32⟩
  | .hbm, ⟨63, _⟩ => ⟨S64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S1x64x64, .f32⟩
  | .hbm, ⟨88, _⟩ => ⟨S64x64, .f32⟩
  | .hbm, ⟨89, _⟩ => ⟨S100000x64, .f32⟩
  | .hbm, ⟨90, _⟩ => ⟨S1x64, .f32⟩
  | .hbm, ⟨91, _⟩ => ⟨S64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S_, .i32⟩
  | .hbm, ⟨101, _⟩ => ⟨S1600000, .i32⟩
  | .hbm, ⟨102, _⟩ => ⟨S1600000, .i1⟩
  | .hbm, ⟨103, _⟩ => ⟨S_, .i32⟩
  | .hbm, ⟨104, _⟩ => ⟨S1600000, .i32⟩
  | .hbm, ⟨105, _⟩ => ⟨S1600000, .i32⟩
  | .hbm, ⟨106, _⟩ => ⟨S1600000, .i32⟩
  | .hbm, ⟨107, _⟩ => ⟨S1600000x1, .i32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000x64, .f32⟩
  | .hbm, ⟨114, _⟩ => ⟨S100000x64, .f32⟩
  | .hbm, ⟨115, _⟩ => ⟨S1x64x64, .f32⟩
  | .hbm, ⟨116, _⟩ => ⟨S64x64, .f32⟩
  | .hbm, ⟨117, _⟩ => ⟨S100000x64, .f32⟩
  | .hbm, ⟨118, _⟩ => ⟨S1x64, .f32⟩
  | .hbm, ⟨119, _⟩ => ⟨S64, .f32⟩
  | .hbm, ⟨120, _⟩ => ⟨S1x64, .f32⟩
  | .hbm, ⟨121, _⟩ => ⟨S100000x64, .f32⟩
  | .hbm, ⟨122, _⟩ => ⟨S100000x64, .f32⟩
  | .hbm, ⟨123, _⟩ => ⟨S_, .f32⟩
  | .hbm, ⟨124, _⟩ => ⟨S100000x64, .f32⟩
  | .hbm, ⟨125, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call2_cst : Ref sig .tc := ⟨.hbm, 67, rfl⟩
abbrev main_call2_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_call3_cst : Ref sig .tc := ⟨.hbm, 95, rfl⟩
abbrev main_call3_v0 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_13 : Ref sig .tc := ⟨.hbm, 100, rfl⟩
abbrev main_v73 : Ref sig .tc := ⟨.hbm, 101, rfl⟩
abbrev main_v74 : Ref sig .tc := ⟨.hbm, 102, rfl⟩
abbrev main_c_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call4_cst : Ref sig .tc := ⟨.hbm, 123, rfl⟩
abbrev main_call4_v0 : Ref sig .tc := ⟨.hbm, 124, rfl⟩
abbrev main_v93 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with its result array named.

  The program is ten segments: stretches of host operations and three launches. At every segment boundary the buffers
  hold a known valuation — a stretch applies its operations to the valuation before it, a launch replaces its windows'
  arrays by what the write-backs leave and keeps every other buffer. So every weakly fair execution terminates without a
  fault, the result buffer ends at the last valuation's value there, and the four argument arrays end as launched.
-/
import proofs.«132641_j9242769622550_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's valuation and the argument arrays as launched. -/
theorem run_main : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c)⟩)

end Cert.KernelIdeal.RunValue

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«132641_j9242769622550_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«132641_j9242769622550_1_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.LibHostSlab.lean ====
/-
  Two host forms read at an entry.

  The reference slices one `[1, a, b]` slab out of a weight stack `[M, a, b]`, drops the unit axis and transposes the
  matrix: at `(j, i)` the result is the stack at `(k, i, j)`. And it multiplies matrices by the host's
  `dot_general` contracting the left operand's columns with the right operand's rows: on the extended reals, at
  `(p, q)`, the sum over the contracted axis, whatever record the program prints for those dimension numbers.
-/
import proofs.«132641_j9242769622550_1_alg».proof.Proof.LibDotRecord
import Idealize.ShloMosaic.Lib.ValueLayout

namespace Bilinear.Host

open Idealize.ShloMosaic Idealize.ShloMosaic.ValueIdx

/-- The host's plain matrix product at `(p, q)`: the sum over the contracted axis. -/
theorem dot_apply {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ φ₁) (r : FVec Ideal ⟨2, ![K, N]⟩ φ₂) (prec : Option ContractPrecision)
    (p : Fin M) (q : Fin N) :
    Host.dotGeneral d prec l r (ix2 p q) = ∑ k : Fin K, l (ix2 p k) * r (ix2 k q) := by
  have e := DotRecord.eq_plain d h1 h2 h3 h4 h5 h6
  subst e
  exact Gcn.Lib.plain_dotGeneral_apply l r prec .single p q

/-- Slab `k` of a stack, sliced out, read as a matrix and transposed. -/
theorem slabT_apply {α : Type} {M a b : ℕ} (A : (⟨3, ![M, a, b]⟩ : Shape).Idx → α) (o : ℕ) (k : Fin M) (hk : k.val = o)
    (hs : (⟨3, ![M, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o, 0, 0] A hs) hc) ht (ix2 j i)
      = A (ix3 k i j) :=
  (transpose_ix2_apply _ ht j i).trans <| (shapeCast_1ab_ab_apply _ hc i j).trans <|
    extractStridedSlice_apply ![o, 0, 0] A hs (ix3 (0 : Fin 1) i j) (ix3 k i j) (fun ax => by
      match ax with
      | ⟨0, _⟩ => show k.val = o + 0; omega
      | ⟨1, _⟩ => exact (Nat.zero_add _).symm
      | ⟨2, _⟩ => exact (Nat.zero_add _).symm)

end Bilinear.Host
-- ==== Proof.LibNormedDense.lean ====
/-
  One dense graph-convolution stage, read at an entry.

  A dense stage takes a feature matrix `x : [a, K]`, a per-row scale `d : [a, 1]`, a weight matrix `w : [K, N]` and a bias
  `b : [N]`, scales every row of `x` by its entry of `d`, multiplies by `w`, adds the bias to every row and rectifies:
  at `(p, q)` it is `max (∑ k, x (p, k) * d (p, 0) * w (k, q) + b q) 0`. A tile body and a host program spell it
  differently — the tile broadcasts the column across the tile, narrows both factors to a shorter float format (the
  identity on the extended reals), feeds the matrix unit accumulating into zero, recasts the bias to a row and
  broadcasts it down the tile, and takes the maximum with a splat zero; the host broadcasts by dimension maps, contracts
  with `dot_general` and takes the maximum with a broadcast scalar zero — and on the extended reals both read, entry by
  entry, as that one expression. Every extent is generic.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«132641_j9242769622550_1_alg».proof.Proof.LibDotRecord
import proofs.«132641_j9242769622550_1_alg».proof.Proof.LibRowOps
import proofs.«132641_j9242769622550_1_alg».proof.Proof.LibTileOps
import proofs.«132641_j9242769622550_1_alg».proof.Proof.LibHostRead
import proofs.«132641_j9242769622550_1_alg».proof.Proof.LibHostSlab

noncomputable section

namespace NormedDense

open Idealize.ShloMosaic Idealize.ShloMosaic.ValueIdx

variable {a K N : ℕ}

/-- The stage at row `p` and column `q`: the scaled row of `x` against column `q` of `w`, plus the bias, rectified. -/
def entry (x : (⟨2, ![a, K]⟩ : Shape).Idx → EReal) (d : (⟨2, ![a, 1]⟩ : Shape).Idx → EReal)
    (w : (⟨2, ![K, N]⟩ : Shape).Idx → EReal) (b : (⟨1, ![N]⟩ : Shape).Idx → EReal) (p : Fin a) (q : Fin N) : EReal :=
  max (∑ k : Fin K, x (ix2 p k) * d (ix2 p (0 : Fin 1)) * w (ix2 k q) + b (ix1 q)) (Ideal.ofBits .f32 0x00000000#32)

/-- The stage as one function of the whole arrays. -/
def stage (x : (⟨2, ![a, K]⟩ : Shape).Idx → EReal) (d : (⟨2, ![a, 1]⟩ : Shape).Idx → EReal)
    (w : (⟨2, ![K, N]⟩ : Shape).Idx → EReal) (b : (⟨1, ![N]⟩ : Shape).Idx → EReal) : (⟨2, ![a, N]⟩ : Shape).Idx → EReal :=
  fun i => entry x d w b (i 0) (i 1)

theorem stage_apply (x : (⟨2, ![a, K]⟩ : Shape).Idx → EReal) (d : (⟨2, ![a, 1]⟩ : Shape).Idx → EReal)
    (w : (⟨2, ![K, N]⟩ : Shape).Idx → EReal) (b : (⟨1, ![N]⟩ : Shape).Idx → EReal) (p : Fin a) (q : Fin N) :
    stage x d w b (ix2 p q) = entry x d w b p q := rfl

/-- The tile body's spelling at `(p, q)`: the column broadcast across the tile and multiplied in, both factors narrowed, the
    matrix unit accumulating into zero under any record with the plain product's axis lists, the bias recast to a row and
    broadcast down the tile, the maximum with a splat zero. -/
theorem tile_apply {ψ : FTy} (x0 : FVec Ideal ⟨2, ![a, K]⟩ .f32) (x1 : FVec Ideal ⟨2, ![a, 1]⟩ .f32)
    (x2 : FVec Ideal ⟨2, ![K, N]⟩ .f32) (x3 : FVec Ideal ⟨1, ![N]⟩ .f32)
    (dd : DotDims ⟨2, ![a, K]⟩ ⟨2, ![K, N]⟩ ⟨2, ![a, N]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision) (hψ : ψ.bits < FTy.f32.bits)
    (c0 : (⟨2, ![a, K]⟩ : Shape).ShapeCasts ⟨2, ![a, K]⟩) (c1 : (⟨2, ![a, 1]⟩ : Shape).ShapeCasts ⟨2, ![a, 1]⟩)
    (hb1 : (⟨2, ![a, 1]⟩ : Shape).Broadcasts ⟨2, ![a, K]⟩) (c2 : (⟨2, ![K, N]⟩ : Shape).ShapeCasts ⟨2, ![K, N]⟩)
    (c3 : (⟨1, ![N]⟩ : Shape).ShapeCasts ⟨1, ![N]⟩) (c4 : (⟨1, ![N]⟩ : Shape).ShapeCasts ⟨2, ![1, N]⟩)
    (hb2 : (⟨2, ![1, N]⟩ : Shape).Broadcasts ⟨2, ![a, N]⟩) (p : Fin a) (q : Fin N) :
    maximumf
        (addf
          (matmul dd prec
            (truncf ψ (mulf (shapeCast ⟨2, ![a, K]⟩ x0 c0) (broadcastTo ⟨2, ![a, K]⟩ (shapeCast ⟨2, ![a, 1]⟩ x1 c1) hb1)) hψ)
            (truncf ψ (shapeCast ⟨2, ![K, N]⟩ x2 c2) hψ) (constant ⟨2, ![a, N]⟩ .f32 0x00000000#32))
          (broadcastTo ⟨2, ![a, N]⟩ (shapeCast ⟨2, ![1, N]⟩ (shapeCast ⟨1, ![N]⟩ x3 c3) c4) hb2))
        (broadcast ⟨2, ![a, N]⟩ (Scalar.ofBits (F := Ideal) .f32 0x00000000#32)) (ix2 p q)
      = entry x0 x1 x2 x3 p q := by
  unfold entry
  refine congrArg₂ max (congrArg₂ (· + ·) ?_ (Hmu.Lib.rowVec_self_apply x3 c3 c4 hb2 p q)) rfl
  refine (DotRecord.matmul_zero_apply dd h1 h2 h3 h4 h5 h6 _ _ prec p q).trans (Finset.sum_congr rfl fun k _ => ?_)
  show shapeCast ⟨2, ![a, K]⟩ x0 c0 (ix2 p k) * broadcastTo ⟨2, ![a, K]⟩ (shapeCast ⟨2, ![a, 1]⟩ x1 c1) hb1 (ix2 p k)
      * shapeCast ⟨2, ![K, N]⟩ x2 c2 (ix2 k q) = _
  rw [shapeCast_self, shapeCast_self, Gcn.Lib.broadcastTo_a1_ab_apply _ hb1 p k, shapeCast_self]

/-- The host's spelling at `(p, q)`: the column repeated over the columns by a dimension map and multiplied in, the
    `dot_general` contracting the columns of the left operand with the rows of the right one, the bias as a row repeated down
    the rows, the maximum with a scalar zero repeated everywhere. -/
theorem host_apply (x : FVec Ideal ⟨2, ![a, K]⟩ .f32) (d : FVec Ideal ⟨2, ![a, 1]⟩ .f32)
    (w : FVec Ideal ⟨2, ![K, N]⟩ .f32) (b : FVec Ideal ⟨1, ![N]⟩ .f32)
    (dd : DotDims ⟨2, ![a, K]⟩ ⟨2, ![K, N]⟩ ⟨2, ![a, N]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision)
    (hd : (⟨2, ![a, 1]⟩ : Shape).BroadcastsInDim ⟨2, ![a, K]⟩ (![0, 1] : Fin 2 → Fin 2))
    (hr : (⟨1, ![N]⟩ : Shape).BroadcastsInDim ⟨2, ![1, N]⟩ (![1] : Fin 1 → Fin 2))
    (hrr : (⟨2, ![1, N]⟩ : Shape).BroadcastsInDim ⟨2, ![a, N]⟩ (![0, 1] : Fin 2 → Fin 2))
    (hz : (⟨0, ![]⟩ : Shape).BroadcastsInDim ⟨2, ![a, N]⟩ ![]) (p : Fin a) (q : Fin N) :
    maximumf
        (addf (Host.dotGeneral dd prec (mulf x (broadcastInDim ⟨2, ![a, K]⟩ ![0, 1] hd d)) w)
          (broadcastInDim ⟨2, ![a, N]⟩ ![0, 1] hrr (broadcastInDim ⟨2, ![1, N]⟩ ![1] hr b)))
        (broadcastInDim ⟨2, ![a, N]⟩ ![] hz (constant (F := Ideal) ⟨0, ![]⟩ .f32 0x00000000#32)) (ix2 p q)
      = entry x d w b p q := by
  unfold entry
  refine congrArg₂ max (congrArg₂ (· + ·) ?_ ?_) (Hmu.Lib.bcast_const_apply _ hz (ix2 p q))
  · refine (Bilinear.Host.dot_apply dd h1 h2 h3 h4 h5 h6 _ _ prec p q).trans (Finset.sum_congr rfl fun k _ => ?_)
    show x (ix2 p k) * broadcastInDim ⟨2, ![a, K]⟩ ![0, 1] hd d (ix2 p k) * w (ix2 k q) = _
    rw [Hmu.Lib.bcast_a1_ab_apply d hd p k]
  · exact (Hmu.Lib.bcast_1b_ab_apply _ hrr p q).trans (Hmu.Lib.bcast_b_1b_apply b hr 0 q)

/-- The host's spelling as a whole array is the stage. -/
theorem host_eq (x : FVec Ideal ⟨2, ![a, K]⟩ .f32) (d : FVec Ideal ⟨2, ![a, 1]⟩ .f32)
    (w : FVec Ideal ⟨2, ![K, N]⟩ .f32) (b : FVec Ideal ⟨1, ![N]⟩ .f32)
    (dd : DotDims ⟨2, ![a, K]⟩ ⟨2, ![K, N]⟩ ⟨2, ![a, N]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision)
    (hd : (⟨2, ![a, 1]⟩ : Shape).BroadcastsInDim ⟨2, ![a, K]⟩ (![0, 1] : Fin 2 → Fin 2))
    (hr : (⟨1, ![N]⟩ : Shape).BroadcastsInDim ⟨2, ![1, N]⟩ (![1] : Fin 1 → Fin 2))
    (hrr : (⟨2, ![1, N]⟩ : Shape).BroadcastsInDim ⟨2, ![a, N]⟩ (![0, 1] : Fin 2 → Fin 2))
    (hz : (⟨0, ![]⟩ : Shape).BroadcastsInDim ⟨2, ![a, N]⟩ ![]) :
    maximumf
        (addf (Host.dotGeneral dd prec (mulf x (broadcastInDim ⟨2, ![a, K]⟩ ![0, 1] hd d)) w)
          (broadcastInDim ⟨2, ![a, N]⟩ ![0, 1] hrr (broadcastInDim ⟨2, ![1, N]⟩ ![1] hr b)))
        (broadcastInDim ⟨2, ![a, N]⟩ ![] hz (constant (F := Ideal) ⟨0, ![]⟩ .f32 0x00000000#32))
      = stage x d w b := by
  funext i
  obtain ⟨p, q, rfl⟩ : ∃ (p : Fin a) (q : Fin N), i = ix2 p q := ⟨i 0, i 1, eq_ix2 i⟩
  exact host_apply x d w b dd h1 h2 h3 h4 h5 h6 prec hd hr hrr hz p q

end NormedDense

end
-- ==== Proof.Net.lean ====
/-
  The three-layer graph network as one function of the four argument arrays.

  From the edge list `e : [2, E]` come the source row and the destination row; from a row of node numbers the
  degree of every node (ones scattered and added) and the column of inverse square roots of the degrees, zero
  where the degree is zero; from features `h`, the source scale and the two rows, the aggregate: every edge
  carries the scaled feature row of its source (read at the node number, negative numbers wrapped once) to its destination,
  where the rows are added. A layer is a dense stage of the aggregate scaled by the destination column, and the network
  is three layers on slices 0, 1, 2 of the weight and bias stacks. The layer is a parameter: with the host's spelling
  of the dense stage this is, term for term, what the host program computes; the dense stage read entry by entry is
  the other choice, and the two agree.
-/
import proofs.«132641_j9242769622550_1_alg».proof.Proof.Gen.ReferenceIdeal
import proofs.«132641_j9242769622550_1_alg».proof.Proof.LibNormedDense

noncomputable section

namespace Cert.ReferenceIdeal.Net

open Cert.ReferenceIdeal Cert.ReferenceIdeal.Gen Idealize.ShloMosaic

abbrev Edges := IVec S2x1600000 32
abbrev Row := IVec S1600000 32
abbrev Feat := FVec Ideal S100000x64 .f32
abbrev Col := FVec Ideal S100000x1 .f32
abbrev Mat := FVec Ideal S64x64 .f32
abbrev Bias := FVec Ideal S64 .f32
abbrev Mats := FVec Ideal S3x64x64 .f32
abbrev Biases := FVec Ideal S3x64 .f32

/-- Row 0 of the edge list: the source node of every edge. -/
def sources (e : Edges) : Row :=
  shapeCast S1600000 (extractStridedSlice S1x1600000 ![0, 0] e slices_S2x1600000_S1x1600000_0_0) shapeCasts_S1x1600000_S1600000

/-- Row 1 of the edge list: the destination node of every edge. -/
def targets (e : Edges) : Row :=
  shapeCast S1600000 (extractStridedSlice S1x1600000 ![1, 0] e slices_S2x1600000_S1x1600000_1_0) shapeCasts_S1x1600000_S1600000

/-- How many entries of the row name each node: a one per entry, added at the node. -/
def degree (s : Row) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 s)
    (broadcastInDim S1600000 ![] bcast_S_S1600000 (constant (F := Ideal) S_ .f32 0x3F800000#32))

/-- The column of `1 / sqrt (max degree 1)` where the degree is positive, zero elsewhere. -/
def invSqrtDegree (s : Row) : Col :=
  broadcastInDim S100000x1 ![0] bcast_S100000_S100000x1_0
    (select (cmpf .ogt (degree s) (broadcastInDim S100000 ![] bcast_S_S100000 (constant (F := Ideal) S_ .f32 0x00000000#32)))
      (Host.rsqrt (maximumf (degree s) (broadcastInDim S100000 ![] bcast_S_S100000 (constant (F := Ideal) S_ .f32 0x3F800000#32))))
      (broadcastInDim S100000 ![] bcast_S_S100000 (id (constant (F := Ideal) S_ .f32 0x00000000#32))))

/-- Every edge carries the scaled feature row of its source to its destination, where the rows are added. -/
def aggregate (h : Feat) (ns : Col) (s d : Row) : Feat :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164
      (mulf h (broadcastInDim S100000x64 ![0, 1] bcast_S100000x1_S100000x64_0_1 ns))
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- Slices 0, 1, 2 of the weight stack as matrices, and of the bias stack as vectors. -/
def weight0 (ws : Mats) : Mat := shapeCast S64x64 (extractStridedSlice S1x64x64 ![0, 0, 0] ws slices_S3x64x64_S1x64x64_0_0_0) shapeCasts_S1x64x64_S64x64
def weight1 (ws : Mats) : Mat := shapeCast S64x64 (extractStridedSlice S1x64x64 ![1, 0, 0] ws slices_S3x64x64_S1x64x64_1_0_0) shapeCasts_S1x64x64_S64x64
def weight2 (ws : Mats) : Mat := shapeCast S64x64 (extractStridedSlice S1x64x64 ![2, 0, 0] ws slices_S3x64x64_S1x64x64_2_0_0) shapeCasts_S1x64x64_S64x64
def bias0 (bs : Biases) : Bias := shapeCast S64 (extractStridedSlice S1x64 ![0, 0] bs slices_S3x64_S1x64_0_0) shapeCasts_S1x64_S64
def bias1 (bs : Biases) : Bias := shapeCast S64 (extractStridedSlice S1x64 ![1, 0] bs slices_S3x64_S1x64_1_0) shapeCasts_S1x64_S64
def bias2 (bs : Biases) : Bias := shapeCast S64 (extractStridedSlice S1x64 ![2, 0] bs slices_S3x64_S1x64_2_0) shapeCasts_S1x64_S64

/-- The host's spelling of the dense stage. -/
def hostLayer (g : Feat) (nd : Col) (w : Mat) (b : Bias) : Feat :=
  maximumf
    (addf (Host.dotGeneral dot_S100000x64_S64x64_S100000x64_1_0_0_1_n_n none
        (mulf g (broadcastInDim S100000x64 ![0, 1] bcast_S100000x1_S100000x64_0_1 nd)) w)
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- The dense stage read entry by entry. -/
def denseLayer (g : Feat) (nd : Col) (w : Mat) (b : Bias) : Feat :=
  NormedDense.stage (a := 100000) (K := 64) (N := 64) g nd w b

/-- The host's spelling is the dense stage. -/
theorem hostLayer_eq : hostLayer = denseLayer := by
  funext g nd w b
  unfold hostLayer denseLayer
  exact NormedDense.host_eq (a := 100000) (K := 64) (N := 64) g nd w b dot_S100000x64_S64x64_S100000x64_1_0_0_1_n_n
    rfl rfl rfl rfl rfl rfl none bcast_S100000x1_S100000x64_0_1 bcast_S64_S1x64_1 bcast_S1x64_S100000x64_0_1 bcast_S_S100000x64

/-- The network over a layer `L`: three layers, each on the aggregate of the previous features. -/
def network (L : Feat → Col → Mat → Bias → Feat) (x : Feat) (e : Edges) (ws : Mats) (bs : Biases) : Feat :=
  L (aggregate
      (L (aggregate
          (L (aggregate x (invSqrtDegree (sources e)) (sources e) (targets e))
            (invSqrtDegree (targets e)) (weight0 ws) (bias0 bs))
          (invSqrtDegree (sources e)) (sources e) (targets e))
        (invSqrtDegree (targets e)) (weight1 ws) (bias1 bs))
      (invSqrtDegree (sources e)) (sources e) (targets e))
    (invSqrtDegree (targets e)) (weight2 ws) (bias2 bs)

end Cert.ReferenceIdeal.Net

end
-- ==== Proof.Tile.lean ====
/-
  The body's stored value at an entry.

  Each of the three launches stores, at every grid point, one `[5000, 64]` tile computed from the point's blocks: the
  feature tile scaled row by row by the column tile, times the weight matrix, plus the bias, rectified. At `(p, q)` that
  is the dense stage's entry of the four blocks.
-/
import proofs.«132641_j9242769622550_1_alg».proof.Proof.Gen.KernelIdeal.Skeleton
import proofs.«132641_j9242769622550_1_alg».proof.Proof.LibNormedDense

noncomputable section

namespace Cert.KernelIdeal.Tile

open Cert.KernelIdeal Cert.KernelIdeal.Gen Idealize.ShloMosaic Idealize.ShloMosaic.ValueIdx

/-- The first launch's tile at `(p, q)`. -/
theorem pay0 (x0 : Vec Ideal S5000x64 .f32) (x1 : Vec Ideal S5000x1 .f32) (x2 : Vec Ideal S64x64 .f32) (x3 : Vec Ideal S64 .f32)
    (p : Fin 5000) (q : Fin 64) :
    Gen.k0_pay1 (F := Ideal) x0 x1 x2 x3 (ix2 p q) = NormedDense.entry (a := 5000) (K := 64) (N := 64) x0 x1 x2 x3 p q := by
  unfold Gen.k0_pay1
  exact NormedDense.tile_apply (a := 5000) (K := 64) (N := 64) x0 x1 x2 x3 dot_S5000x64_S64x64_S5000x64_1_0_0_1_n_n
    rfl rfl rfl rfl rfl rfl none bitsLt_bf16_f32 shapeCasts_S5000x64_S5000x64 shapeCasts_S5000x1_S5000x1
    broadcasts_S5000x1_S5000x64 shapeCasts_S64x64_S64x64 shapeCasts_S64_S64 shapeCasts_S64_S1x64 broadcasts_S1x64_S5000x64 p q

/-- The second launch's tile at `(p, q)`. -/
theorem pay1 (x0 : Vec Ideal S5000x64 .f32) (x1 : Vec Ideal S5000x1 .f32) (x2 : Vec Ideal S64x64 .f32) (x3 : Vec Ideal S64 .f32)
    (p : Fin 5000) (q : Fin 64) :
    Gen.k1_pay1 (F := Ideal) x0 x1 x2 x3 (ix2 p q) = NormedDense.entry (a := 5000) (K := 64) (N := 64) x0 x1 x2 x3 p q := by
  unfold Gen.k1_pay1
  exact NormedDense.tile_apply (a := 5000) (K := 64) (N := 64) x0 x1 x2 x3 dot_S5000x64_S64x64_S5000x64_1_0_0_1_n_n
    rfl rfl rfl rfl rfl rfl none bitsLt_bf16_f32 shapeCasts_S5000x64_S5000x64 shapeCasts_S5000x1_S5000x1
    broadcasts_S5000x1_S5000x64 shapeCasts_S64x64_S64x64 shapeCasts_S64_S64 shapeCasts_S64_S1x64 broadcasts_S1x64_S5000x64 p q

/-- The third launch's tile at `(p, q)`. -/
theorem pay2 (x0 : Vec Ideal S5000x64 .f32) (x1 : Vec Ideal S5000x1 .f32) (x2 : Vec Ideal S64x64 .f32) (x3 : Vec Ideal S64 .f32)
    (p : Fin 5000) (q : Fin 64) :
    Gen.k2_pay1 (F := Ideal) x0 x1 x2 x3 (ix2 p q) = NormedDense.entry (a := 5000) (K := 64) (N := 64) x0 x1 x2 x3 p q := by
  unfold Gen.k2_pay1
  exact NormedDense.tile_apply (a := 5000) (K := 64) (N := 64) x0 x1 x2 x3 dot_S5000x64_S64x64_S5000x64_1_0_0_1_n_n
    rfl rfl rfl rfl rfl rfl none bitsLt_bf16_f32 shapeCasts_S5000x64_S5000x64 shapeCasts_S5000x1_S5000x1
    broadcasts_S5000x1_S5000x64 shapeCasts_S64x64_S64x64 shapeCasts_S64_S64 shapeCasts_S64_S1x64 broadcasts_S1x64_S5000x64 p q

end Cert.KernelIdeal.Tile

end
-- ==== Proof.Region0.lean ====
/-
  The first launch, from blocks to the array.

  The launch runs the tiled kernel over 20 grid points. At point `t` the body reads block `t` of the `[100000, 64]`
  feature array (rows `5000 t … 5000 t + 4999`), block `t` of the `[100000, 1]` scale column (the same rows), the whole
  `[64, 64]` weight matrix and the whole `[64]` bias, and stores one `[5000, 64]` tile, which the pipeline writes back as
  block `t` of the output array. Entry `(p, q)` of the tile is the dense stage's entry of the four blocks, and each
  block entry is the array entry at the row `5000 t + p`; so what point `t` writes back is block `t` of ONE function of
  the four whole arrays, the dense stage. Row `r` of the output lies in the block of point `r / 5000`, so the twenty blocks
  cover the output array, which therefore ends holding the dense stage of the four arrays as the launch found them.
  Everything is stated at arbitrary buffer contents `V` at the launch's entry.
-/
import proofs.«132641_j9242769622550_1_alg».proof.Proof.Gen.KernelIdeal.Frame
import proofs.«132641_j9242769622550_1_alg».proof.Proof.Tile
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-buffer access of rank 2, as a constant function. -/
theorem zero_pair0 : (![0, 0] : Fin 2 → Nat) = fun _ => 0 := funext fun a => by fin_cases a <;> rfl
/-- The zero offset of a whole-buffer access of rank 1, as a constant function. -/
theorem zero_single0 : (![0] : Fin 1 → Nat) = fun _ => 0 := funext fun a => by fin_cases a; rfl

/-- The block indices over the grid: at point `t` the output, the feature rows and the scale column are at block row `t`,
    column block 0; the weight matrix and the bias are at block 0 on every axis. -/
theorem block_indices0 : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 :=
  (by decide +kernel : ∀ t : Fin grid0.N, _)

/-- The feature block at point `t` is rows `5000 t … 5000 t + 4999` of the feature array: a block's coordinate in the
    array is the block index times the block's extent plus the coordinate inside the block. -/
theorem feature_block0 (c : Dev nD) (t : Fin cfg0.N) (y : S5000x64.Idx) (i : S100000x64.Idx)
    (h0 : (i 0).val = t.val * 5000 + (y 0).val) (h1 : (i 1).val = (y 1).val) :
    (iblk0 V c 0 t : Vec Ideal S5000x64 .f32) y = (V c main_v36 : S100000x64.Idx → EReal) i := by
  obtain ⟨-, -, e0, e1, -⟩ := block_indices0 t
  unfold iblk0
  rw [View.read_apply]
  show V c main_v36 _ = V c main_v36 _
  congr 1
  funext a
  apply Fin.ext
  match a with
  | ⟨0, _⟩ => show win0_0.index t 0 * 5000 + 1 * (y 0).val = (i 0).val; rw [e0, h0]; omega
  | ⟨1, _⟩ => show win0_0.index t 1 * 64 + 1 * (y 1).val = (i 1).val; rw [e1, h1]; omega

/-- The scale block at point `t` is rows `5000 t … 5000 t + 4999` of the scale column. -/
theorem scale_block0 (c : Dev nD) (t : Fin cfg0.N) (y : S5000x1.Idx) (i : S100000x1.Idx)
    (h0 : (i 0).val = t.val * 5000 + (y 0).val) (h1 : (i 1).val = (y 1).val) :
    (iblk0 V c 1 t : Vec Ideal S5000x1 .f32) y = (V c main_v24 : S100000x1.Idx → EReal) i := by
  obtain ⟨-, -, -, -, e0, e1, -⟩ := block_indices0 t
  unfold iblk0
  rw [View.read_apply]
  show V c main_v24 _ = V c main_v24 _
  congr 1
  funext a
  apply Fin.ext
  match a with
  | ⟨0, _⟩ => show win0_1.index t 0 * 5000 + 1 * (y 0).val = (i 0).val; rw [e0, h0]; omega
  | ⟨1, _⟩ => show win0_1.index t 1 * 1 + 1 * (y 1).val = (i 1).val; rw [e1, h1]; omega

/-- The weight block at every point is the whole weight matrix. -/
theorem weight_block0 (c : Dev nD) (t : Fin cfg0.N) :
    (iblk0 V c 2 t : Vec Ideal S64x64 .f32) = (V c main_v38 : S64x64.Idx → EReal) := by
  obtain ⟨-, -, -, -, -, -, e0, e1, -⟩ := block_indices0 t
  funext y
  unfold iblk0
  rw [View.read_apply]
  show V c main_v38 _ = V c main_v38 _
  congr 1
  funext a
  apply Fin.ext
  match a with
  | ⟨0, _⟩ => show win0_2.index t 0 * 64 + 1 * (y 0).val = (y 0).val; rw [e0]; omega
  | ⟨1, _⟩ => show win0_2.index t 1 * 64 + 1 * (y 1).val = (y 1).val; rw [e1]; omega

/-- The bias block at every point is the whole bias vector. -/
theorem bias_block0 (c : Dev nD) (t : Fin cfg0.N) :
    (iblk0 V c 3 t : Vec Ideal S64 .f32) = (V c main_v40 : S64.Idx → EReal) := by
  obtain ⟨-, -, -, -, -, -, -, -, e0⟩ := block_indices0 t
  funext y
  unfold iblk0
  rw [View.read_apply]
  show V c main_v40 _ = V c main_v40 _
  congr 1
  funext a
  apply Fin.ext
  match a with
  | ⟨0, _⟩ => show win0_3.index t 0 * 64 + 1 * (y 0).val = (y 0).val; rw [e0]; omega

/-- One entry of a tile, over any feature and scale blocks that are the named rows of two arrays: the tile body at
    `(p, q)` is the stage's entry at `(r, q)`, `r` the array row that block row `p` is. -/
theorem tile_entry0 (x0 : Vec Ideal S5000x64 .f32) (x1 : Vec Ideal S5000x1 .f32) (x2 : Vec Ideal S64x64 .f32) (x3 : Vec Ideal S64 .f32)
    (A0 : S100000x64.Idx → EReal) (A1 : S100000x1.Idx → EReal)
    (p : Fin 5000) (q : Fin 64) (r : Fin 100000)
    (h0 : ∀ k : Fin 64, x0 (ix2 p k) = A0 (ix2 r k)) (h1 : x1 (ix2 p (0 : Fin 1)) = A1 (ix2 r (0 : Fin 1))) :
    k0_pay1 (F := Ideal) x0 x1 x2 x3 (ix2 p q) = NormedDense.entry A0 A1 x2 x3 r q := by
  rw [Tile.pay0]
  unfold NormedDense.entry
  refine congrArg₂ max (congrArg₂ (· + ·) (Finset.sum_congr rfl fun k _ => ?_) rfl) rfl
  rw [h0 k, h1]

/-- One entry of the tile at point `t`: the body of the four blocks at `y` is the stage of the four arrays at the array
    index `i` whose row is `5000 t` plus `y`'s and whose column is `y`'s. -/
theorem block_entry0 (c : Dev nD) (t : Fin cfg0.N) (y : S5000x64.Idx) (i : S100000x64.Idx)
    (hi0 : (i 0).val = t.val * 5000 + (y 0).val) (hi1 : (i 1).val = (y 1).val) :
    k0_pay1 (F := Ideal) (iblk0 V c 0 t) (iblk0 V c 1 t) (iblk0 V c 2 t) (iblk0 V c 3 t) y
      = NormedDense.stage (V c main_v36) (V c main_v24) (V c main_v38) (V c main_v40) i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hr : r.val = t.val * 5000 + p.val := hi0
  obtain rfl : q' = q := Fin.ext hi1
  rw [NormedDense.stage_apply, weight_block0 V c t, bias_block0 V c t]
  refine tile_entry0 _ _ _ _ _ _ p q' r (fun k => ?_) ?_
  · exact feature_block0 V c t (ix2 p k) (ix2 r k) hr rfl
  · exact scale_block0 V c t (ix2 p (0 : Fin 1)) (ix2 r (0 : Fin 1)) hr rfl

/-- What point `t` writes back is block `t` of the stage of the four arrays as the launch finds them. -/
theorem flushed_eq0 (c : Dev nD) (t : Fin cfg0.N) :
    (dat0 V c).flushed 4 t = ((cfg0.win 4).blk t).view.read (Elt Ideal)
      (NormedDense.stage (V c main_v36) (V c main_v24) (V c main_v38) (V c main_v40) : S100000x64.Idx → EReal) := by
  show (cfg0.win 4).cut (grid0.coords t) ((dat0 V c).after 4 t) = _
  rw [after0_4]
  unfold out0_4
  rw [View.canon_unit_zero zero_pair0]
  simp only [View.ld_unit_zero (S := S5000x64) zero_pair0, View.ld_unit_zero (S := S5000x1) zero_pair0,
    View.ld_unit_zero (S := S64x64) zero_pair0, View.ld_unit_zero (S := S64) zero_single0]
  obtain ⟨e0, e1, -⟩ := block_indices0 t
  funext j
  refine block_entry0 V c t j _ ?_ ?_
  · show win0_4.index t 0 * 5000 + 1 * (j 0).val = t.val * 5000 + (j 0).val; rw [e0]; omega
  · show win0_4.index t 1 * 64 + 1 * (j 1).val = (j 1).val; rw [e1]; omega

/-- An index of the output array is in point `t`'s block iff each coordinate is in the block's range on its axis. -/
theorem mem_block0 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v41).slice (win0_4.rect t)).set ↔ _
  rw [View.set_slice_whole, Rect.mem_set_unit]
  exact Iff.rfl

/-- Every index of the output array is in the block of the point its row falls to: row `r` is in block `r / 5000`. -/
theorem covered0 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, -⟩ := block_indices0 t
  have ht : t.val = (i 0).val / 5000 := rfl
  refine ⟨t, flush0_4 t, ?_⟩
  rw [mem_block0]
  intro a
  match a with
  | ⟨0, _⟩ => show win0_4.index t (0 : Fin 2) * 5000 ≤ (i 0).val ∧ (i 0).val < win0_4.index t (0 : Fin 2) * 5000 + 5000; rw [e0, ht]; omega
  | ⟨1, _⟩ => show win0_4.index t (1 : Fin 2) * 64 ≤ (i 1).val ∧ (i 1).val < win0_4.index t (1 : Fin 2) * 64 + 64; rw [e1]; omega

/-- The output array after the launch: the stage of the four arrays as the launch finds them. -/
theorem final0 (c : Dev nD) :
    (Gen.dat0 V c).arrAt 4 cfg0.N = (NormedDense.stage (V c main_v36) (V c main_v24) (V c main_v38) (V c main_v40) : S100000x64.Idx → EReal) :=
  (dat0 V c).arrAt_eq_of_cover 4 _ (fun t _ => flushed_eq0 V c t) covered0

end Cert.KernelIdeal.RegionValue

end
-- ==== Proof.Region1.lean ====
/-
  The second launch, from blocks to the array.

  The launch runs the tiled kernel over 20 grid points. At point `t` the body reads block `t` of the `[100000, 64]`
  feature array (rows `5000 t … 5000 t + 4999`), block `t` of the `[100000, 1]` scale column (the same rows), the whole
  `[64, 64]` weight matrix and the whole `[64]` bias, and stores one `[5000, 64]` tile, which the pipeline writes back as
  block `t` of the output array. Entry `(p, q)` of the tile is the dense stage's entry of the four blocks, and each
  block entry is the array entry at the row `5000 t + p`; so what point `t` writes back is block `t` of ONE function of
  the four whole arrays, the dense stage. Row `r` of the output lies in the block of point `r / 5000`, so the twenty blocks
  cover the output array, which therefore ends holding the dense stage of the four arrays as the launch found them.
  Everything is stated at arbitrary buffer contents `V` at the launch's entry.
-/
import proofs.«132641_j9242769622550_1_alg».proof.Proof.Gen.KernelIdeal.Frame
import proofs.«132641_j9242769622550_1_alg».proof.Proof.Tile
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-buffer access of rank 2, as a constant function. -/
theorem zero_pair1 : (![0, 0] : Fin 2 → Nat) = fun _ => 0 := funext fun a => by fin_cases a <;> rfl
/-- The zero offset of a whole-buffer access of rank 1, as a constant function. -/
theorem zero_single1 : (![0] : Fin 1 → Nat) = fun _ => 0 := funext fun a => by fin_cases a; rfl

/-- The block indices over the grid: at point `t` the output, the feature rows and the scale column are at block row `t`,
    column block 0; the weight matrix and the bias are at block 0 on every axis. -/
theorem block_indices1 : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0 :=
  (by decide +kernel : ∀ t : Fin grid1.N, _)

/-- The feature block at point `t` is rows `5000 t … 5000 t + 4999` of the feature array: a block's coordinate in the
    array is the block index times the block's extent plus the coordinate inside the block. -/
theorem feature_block1 (c : Dev nD) (t : Fin cfg1.N) (y : S5000x64.Idx) (i : S100000x64.Idx)
    (h0 : (i 0).val = t.val * 5000 + (y 0).val) (h1 : (i 1).val = (y 1).val) :
    (iblk1 V c 0 t : Vec Ideal S5000x64 .f32) y = (V c main_v53 : S100000x64.Idx → EReal) i := by
  obtain ⟨-, -, e0, e1, -⟩ := block_indices1 t
  unfold iblk1
  rw [View.read_apply]
  show V c main_v53 _ = V c main_v53 _
  congr 1
  funext a
  apply Fin.ext
  match a with
  | ⟨0, _⟩ => show win1_0.index t 0 * 5000 + 1 * (y 0).val = (i 0).val; rw [e0, h0]; omega
  | ⟨1, _⟩ => show win1_0.index t 1 * 64 + 1 * (y 1).val = (i 1).val; rw [e1, h1]; omega

/-- The scale block at point `t` is rows `5000 t … 5000 t + 4999` of the scale column. -/
theorem scale_block1 (c : Dev nD) (t : Fin cfg1.N) (y : S5000x1.Idx) (i : S100000x1.Idx)
    (h0 : (i 0).val = t.val * 5000 + (y 0).val) (h1 : (i 1).val = (y 1).val) :
    (iblk1 V c 1 t : Vec Ideal S5000x1 .f32) y = (V c main_v24 : S100000x1.Idx → EReal) i := by
  obtain ⟨-, -, -, -, e0, e1, -⟩ := block_indices1 t
  unfold iblk1
  rw [View.read_apply]
  show V c main_v24 _ = V c main_v24 _
  congr 1
  funext a
  apply Fin.ext
  match a with
  | ⟨0, _⟩ => show win1_1.index t 0 * 5000 + 1 * (y 0).val = (i 0).val; rw [e0, h0]; omega
  | ⟨1, _⟩ => show win1_1.index t 1 * 1 + 1 * (y 1).val = (i 1).val; rw [e1, h1]; omega

/-- The weight block at every point is the whole weight matrix. -/
theorem weight_block1 (c : Dev nD) (t : Fin cfg1.N) :
    (iblk1 V c 2 t : Vec Ideal S64x64 .f32) = (V c main_v55 : S64x64.Idx → EReal) := by
  obtain ⟨-, -, -, -, -, -, e0, e1, -⟩ := block_indices1 t
  funext y
  unfold iblk1
  rw [View.read_apply]
  show V c main_v55 _ = V c main_v55 _
  congr 1
  funext a
  apply Fin.ext
  match a with
  | ⟨0, _⟩ => show win1_2.index t 0 * 64 + 1 * (y 0).val = (y 0).val; rw [e0]; omega
  | ⟨1, _⟩ => show win1_2.index t 1 * 64 + 1 * (y 1).val = (y 1).val; rw [e1]; omega

/-- The bias block at every point is the whole bias vector. -/
theorem bias_block1 (c : Dev nD) (t : Fin cfg1.N) :
    (iblk1 V c 3 t : Vec Ideal S64 .f32) = (V c main_v57 : S64.Idx → EReal) := by
  obtain ⟨-, -, -, -, -, -, -, -, e0⟩ := block_indices1 t
  funext y
  unfold iblk1
  rw [View.read_apply]
  show V c main_v57 _ = V c main_v57 _
  congr 1
  funext a
  apply Fin.ext
  match a with
  | ⟨0, _⟩ => show win1_3.index t 0 * 64 + 1 * (y 0).val = (y 0).val; rw [e0]; omega

/-- One entry of a tile, over any feature and scale blocks that are the named rows of two arrays: the tile body at
    `(p, q)` is the stage's entry at `(r, q)`, `r` the array row that block row `p` is. -/
theorem tile_entry1 (x0 : Vec Ideal S5000x64 .f32) (x1 : Vec Ideal S5000x1 .f32) (x2 : Vec Ideal S64x64 .f32) (x3 : Vec Ideal S64 .f32)
    (A0 : S100000x64.Idx → EReal) (A1 : S100000x1.Idx → EReal)
    (p : Fin 5000) (q : Fin 64) (r : Fin 100000)
    (h0 : ∀ k : Fin 64, x0 (ix2 p k) = A0 (ix2 r k)) (h1 : x1 (ix2 p (0 : Fin 1)) = A1 (ix2 r (0 : Fin 1))) :
    k1_pay1 (F := Ideal) x0 x1 x2 x3 (ix2 p q) = NormedDense.entry A0 A1 x2 x3 r q := by
  rw [Tile.pay1]
  unfold NormedDense.entry
  refine congrArg₂ max (congrArg₂ (· + ·) (Finset.sum_congr rfl fun k _ => ?_) rfl) rfl
  rw [h0 k, h1]

/-- One entry of the tile at point `t`: the body of the four blocks at `y` is the stage of the four arrays at the array
    index `i` whose row is `5000 t` plus `y`'s and whose column is `y`'s. -/
theorem block_entry1 (c : Dev nD) (t : Fin cfg1.N) (y : S5000x64.Idx) (i : S100000x64.Idx)
    (hi0 : (i 0).val = t.val * 5000 + (y 0).val) (hi1 : (i 1).val = (y 1).val) :
    k1_pay1 (F := Ideal) (iblk1 V c 0 t) (iblk1 V c 1 t) (iblk1 V c 2 t) (iblk1 V c 3 t) y
      = NormedDense.stage (V c main_v53) (V c main_v24) (V c main_v55) (V c main_v57) i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hr : r.val = t.val * 5000 + p.val := hi0
  obtain rfl : q' = q := Fin.ext hi1
  rw [NormedDense.stage_apply, weight_block1 V c t, bias_block1 V c t]
  refine tile_entry1 _ _ _ _ _ _ p q' r (fun k => ?_) ?_
  · exact feature_block1 V c t (ix2 p k) (ix2 r k) hr rfl
  · exact scale_block1 V c t (ix2 p (0 : Fin 1)) (ix2 r (0 : Fin 1)) hr rfl

/-- What point `t` writes back is block `t` of the stage of the four arrays as the launch finds them. -/
theorem flushed_eq1 (c : Dev nD) (t : Fin cfg1.N) :
    (dat1 V c).flushed 4 t = ((cfg1.win 4).blk t).view.read (Elt Ideal)
      (NormedDense.stage (V c main_v53) (V c main_v24) (V c main_v55) (V c main_v57) : S100000x64.Idx → EReal) := by
  show (cfg1.win 4).cut (grid1.coords t) ((dat1 V c).after 4 t) = _
  rw [after1_4]
  unfold out1_4
  rw [View.canon_unit_zero zero_pair1]
  simp only [View.ld_unit_zero (S := S5000x64) zero_pair1, View.ld_unit_zero (S := S5000x1) zero_pair1,
    View.ld_unit_zero (S := S64x64) zero_pair1, View.ld_unit_zero (S := S64) zero_single1]
  obtain ⟨e0, e1, -⟩ := block_indices1 t
  funext j
  refine block_entry1 V c t j _ ?_ ?_
  · show win1_4.index t 0 * 5000 + 1 * (j 0).val = t.val * 5000 + (j 0).val; rw [e0]; omega
  · show win1_4.index t 1 * 64 + 1 * (j 1).val = (j 1).val; rw [e1]; omega

/-- An index of the output array is in point `t`'s block iff each coordinate is in the block's range on its axis. -/
theorem mem_block1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v58).slice (win1_4.rect t)).set ↔ _
  rw [View.set_slice_whole, Rect.mem_set_unit]
  exact Iff.rfl

/-- Every index of the output array is in the block of the point its row falls to: row `r` is in block `r / 5000`. -/
theorem covered1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, -⟩ := block_indices1 t
  have ht : t.val = (i 0).val / 5000 := rfl
  refine ⟨t, flush1_4 t, ?_⟩
  rw [mem_block1]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 64 ≤ (i 1).val ∧ (i 1).val < win1_4.index t (1 : Fin 2) * 64 + 64; rw [e1]; omega

/-- The output array after the launch: the stage of the four arrays as the launch finds them. -/
theorem final1 (c : Dev nD) :
    (Gen.dat1 V c).arrAt 4 cfg1.N = (NormedDense.stage (V c main_v53) (V c main_v24) (V c main_v55) (V c main_v57) : S100000x64.Idx → EReal) :=
  (dat1 V c).arrAt_eq_of_cover 4 _ (fun t _ => flushed_eq1 V c t) covered1

end Cert.KernelIdeal.RegionValue

end
-- ==== Proof.Region2.lean ====
/-
  The third launch, from blocks to the array.

  The launch runs the tiled kernel over 20 grid points. At point `t` the body reads block `t` of the `[100000, 64]`
  feature array (rows `5000 t … 5000 t + 4999`), block `t` of the `[100000, 1]` scale column (the same rows), the whole
  `[64, 64]` weight matrix and the whole `[64]` bias, and stores one `[5000, 64]` tile, which the pipeline writes back as
  block `t` of the output array. Entry `(p, q)` of the tile is the dense stage's entry of the four blocks, and each
  block entry is the array entry at the row `5000 t + p`; so what point `t` writes back is block `t` of ONE function of
  the four whole arrays, the dense stage. Row `r` of the output lies in the block of point `r / 5000`, so the twenty blocks
  cover the output array, which therefore ends holding the dense stage of the four arrays as the launch found them.
  Everything is stated at arbitrary buffer contents `V` at the launch's entry.
-/
import proofs.«132641_j9242769622550_1_alg».proof.Proof.Gen.KernelIdeal.Frame
import proofs.«132641_j9242769622550_1_alg».proof.Proof.Tile
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-buffer access of rank 2, as a constant function. -/
theorem zero_pair2 : (![0, 0] : Fin 2 → Nat) = fun _ => 0 := funext fun a => by fin_cases a <;> rfl
/-- The zero offset of a whole-buffer access of rank 1, as a constant function. -/
theorem zero_single2 : (![0] : Fin 1 → Nat) = fun _ => 0 := funext fun a => by fin_cases a; rfl

/-- The block indices over the grid: at point `t` the output, the feature rows and the scale column are at block row `t`,
    column block 0; the weight matrix and the bias are at block 0 on every axis. -/
theorem block_indices2 : ∀ t : Fin cfg2.N,
    win2_4.index t (0 : Fin 2) = t.val ∧ win2_4.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0 :=
  (by decide +kernel : ∀ t : Fin grid2.N, _)

/-- The feature block at point `t` is rows `5000 t … 5000 t + 4999` of the feature array: a block's coordinate in the
    array is the block index times the block's extent plus the coordinate inside the block. -/
theorem feature_block2 (c : Dev nD) (t : Fin cfg2.N) (y : S5000x64.Idx) (i : S100000x64.Idx)
    (h0 : (i 0).val = t.val * 5000 + (y 0).val) (h1 : (i 1).val = (y 1).val) :
    (iblk2 V c 0 t : Vec Ideal S5000x64 .f32) y = (V c main_v70 : S100000x64.Idx → EReal) i := by
  obtain ⟨-, -, e0, e1, -⟩ := block_indices2 t
  unfold iblk2
  rw [View.read_apply]
  show V c main_v70 _ = V c main_v70 _
  congr 1
  funext a
  apply Fin.ext
  match a with
  | ⟨0, _⟩ => show win2_0.index t 0 * 5000 + 1 * (y 0).val = (i 0).val; rw [e0, h0]; omega
  | ⟨1, _⟩ => show win2_0.index t 1 * 64 + 1 * (y 1).val = (i 1).val; rw [e1, h1]; omega

/-- The scale block at point `t` is rows `5000 t … 5000 t + 4999` of the scale column. -/
theorem scale_block2 (c : Dev nD) (t : Fin cfg2.N) (y : S5000x1.Idx) (i : S100000x1.Idx)
    (h0 : (i 0).val = t.val * 5000 + (y 0).val) (h1 : (i 1).val = (y 1).val) :
    (iblk2 V c 1 t : Vec Ideal S5000x1 .f32) y = (V c main_v24 : S100000x1.Idx → EReal) i := by
  obtain ⟨-, -, -, -, e0, e1, -⟩ := block_indices2 t
  unfold iblk2
  rw [View.read_apply]
  show V c main_v24 _ = V c main_v24 _
  congr 1
  funext a
  apply Fin.ext
  match a with
  | ⟨0, _⟩ => show win2_1.index t 0 * 5000 + 1 * (y 0).val = (i 0).val; rw [e0, h0]; omega
  | ⟨1, _⟩ => show win2_1.index t 1 * 1 + 1 * (y 1).val = (i 1).val; rw [e1, h1]; omega

/-- The weight block at every point is the whole weight matrix. -/
theorem weight_block2 (c : Dev nD) (t : Fin cfg2.N) :
    (iblk2 V c 2 t : Vec Ideal S64x64 .f32) = (V c main_v72 : S64x64.Idx → EReal) := by
  obtain ⟨-, -, -, -, -, -, e0, e1, -⟩ := block_indices2 t
  funext y
  unfold iblk2
  rw [View.read_apply]
  show V c main_v72 _ = V c main_v72 _
  congr 1
  funext a
  apply Fin.ext
  match a with
  | ⟨0, _⟩ => show win2_2.index t 0 * 64 + 1 * (y 0).val = (y 0).val; rw [e0]; omega
  | ⟨1, _⟩ => show win2_2.index t 1 * 64 + 1 * (y 1).val = (y 1).val; rw [e1]; omega

/-- The bias block at every point is the whole bias vector. -/
theorem bias_block2 (c : Dev nD) (t : Fin cfg2.N) :
    (iblk2 V c 3 t : Vec Ideal S64 .f32) = (V c main_v74 : S64.Idx → EReal) := by
  obtain ⟨-, -, -, -, -, -, -, -, e0⟩ := block_indices2 t
  funext y
  unfold iblk2
  rw [View.read_apply]
  show V c main_v74 _ = V c main_v74 _
  congr 1
  funext a
  apply Fin.ext
  match a with
  | ⟨0, _⟩ => show win2_3.index t 0 * 64 + 1 * (y 0).val = (y 0).val; rw [e0]; omega

/-- One entry of a tile, over any feature and scale blocks that are the named rows of two arrays: the tile body at
    `(p, q)` is the stage's entry at `(r, q)`, `r` the array row that block row `p` is. -/
theorem tile_entry2 (x0 : Vec Ideal S5000x64 .f32) (x1 : Vec Ideal S5000x1 .f32) (x2 : Vec Ideal S64x64 .f32) (x3 : Vec Ideal S64 .f32)
    (A0 : S100000x64.Idx → EReal) (A1 : S100000x1.Idx → EReal)
    (p : Fin 5000) (q : Fin 64) (r : Fin 100000)
    (h0 : ∀ k : Fin 64, x0 (ix2 p k) = A0 (ix2 r k)) (h1 : x1 (ix2 p (0 : Fin 1)) = A1 (ix2 r (0 : Fin 1))) :
    k2_pay1 (F := Ideal) x0 x1 x2 x3 (ix2 p q) = NormedDense.entry A0 A1 x2 x3 r q := by
  rw [Tile.pay2]
  unfold NormedDense.entry
  refine congrArg₂ max (congrArg₂ (· + ·) (Finset.sum_congr rfl fun k _ => ?_) rfl) rfl
  rw [h0 k, h1]

/-- One entry of the tile at point `t`: the body of the four blocks at `y` is the stage of the four arrays at the array
    index `i` whose row is `5000 t` plus `y`'s and whose column is `y`'s. -/
theorem block_entry2 (c : Dev nD) (t : Fin cfg2.N) (y : S5000x64.Idx) (i : S100000x64.Idx)
    (hi0 : (i 0).val = t.val * 5000 + (y 0).val) (hi1 : (i 1).val = (y 1).val) :
    k2_pay1 (F := Ideal) (iblk2 V c 0 t) (iblk2 V c 1 t) (iblk2 V c 2 t) (iblk2 V c 3 t) y
      = NormedDense.stage (V c main_v70) (V c main_v24) (V c main_v72) (V c main_v74) i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hr : r.val = t.val * 5000 + p.val := hi0
  obtain rfl : q' = q := Fin.ext hi1
  rw [NormedDense.stage_apply, weight_block2 V c t, bias_block2 V c t]
  refine tile_entry2 _ _ _ _ _ _ p q' r (fun k => ?_) ?_
  · exact feature_block2 V c t (ix2 p k) (ix2 r k) hr rfl
  · exact scale_block2 V c t (ix2 p (0 : Fin 1)) (ix2 r (0 : Fin 1)) hr rfl

/-- What point `t` writes back is block `t` of the stage of the four arrays as the launch finds them. -/
theorem flushed_eq2 (c : Dev nD) (t : Fin cfg2.N) :
    (dat2 V c).flushed 4 t = ((cfg2.win 4).blk t).view.read (Elt Ideal)
      (NormedDense.stage (V c main_v70) (V c main_v24) (V c main_v72) (V c main_v74) : S100000x64.Idx → EReal) := by
  show (cfg2.win 4).cut (grid2.coords t) ((dat2 V c).after 4 t) = _
  rw [after2_4]
  unfold out2_4
  rw [View.canon_unit_zero zero_pair2]
  simp only [View.ld_unit_zero (S := S5000x64) zero_pair2, View.ld_unit_zero (S := S5000x1) zero_pair2,
    View.ld_unit_zero (S := S64x64) zero_pair2, View.ld_unit_zero (S := S64) zero_single2]
  obtain ⟨e0, e1, -⟩ := block_indices2 t
  funext j
  refine block_entry2 V c t j _ ?_ ?_
  · show win2_4.index t 0 * 5000 + 1 * (j 0).val = t.val * 5000 + (j 0).val; rw [e0]; omega
  · show win2_4.index t 1 * 64 + 1 * (j 1).val = (j 1).val; rw [e1]; omega

/-- An index of the output array is in point `t`'s block iff each coordinate is in the block's range on its axis. -/
theorem mem_block2 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v75).slice (win2_4.rect t)).set ↔ _
  rw [View.set_slice_whole, Rect.mem_set_unit]
  exact Iff.rfl

/-- Every index of the output array is in the block of the point its row falls to: row `r` is in block `r / 5000`. -/
theorem covered2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0, e1, -⟩ := block_indices2 t
  have ht : t.val = (i 0).val / 5000 := rfl
  refine ⟨t, flush2_4 t, ?_⟩
  rw [mem_block2]
  intro a
  match a with
  | ⟨0, _⟩ => show win2_4.index t (0 : Fin 2) * 5000 ≤ (i 0).val ∧ (i 0).val < win2_4.index t (0 : Fin 2) * 5000 + 5000; rw [e0, ht]; omega
  | ⟨1, _⟩ => show win2_4.index t (1 : Fin 2) * 64 ≤ (i 1).val ∧ (i 1).val < win2_4.index t (1 : Fin 2) * 64 + 64; rw [e1]; omega

/-- The output array after the launch: the stage of the four arrays as the launch finds them. -/
theorem final2 (c : Dev nD) :
    (Gen.dat2 V c).arrAt 4 cfg2.N = (NormedDense.stage (V c main_v70) (V c main_v24) (V c main_v72) (V c main_v74) : S100000x64.Idx → EReal) :=
  (dat2 V c).arrAt_eq_of_cover 4 _ (fun t _ => flushed_eq2 V c t) covered2

end Cert.KernelIdeal.RegionValue

end
-- ==== Proof.NetValue.lean ====
/-
  What the kernel program's result array holds: the network over the dense stage, of the four argument arrays.

  The valuation at each segment boundary is followed buffer by buffer. Before the first launch the host operations leave
  the source and destination rows, the two columns of inverse square roots of the degrees, the first aggregate and the
  first weight matrix and bias, each the network's own function of the arguments. A launch leaves, in its output array,
  the dense stage of its four input arrays (the tiles fill the array), and every other buffer as it was — an input
  window's array too, since nothing is written back to it. The host operations between launches form the next aggregate
  from that output and slice the next weights. After the third launch the result array is the network.
-/
import proofs.«132641_j9242769622550_1_alg».proof.Proof.KernelRun
import proofs.«132641_j9242769622550_1_alg».proof.Proof.Net
import proofs.«132641_j9242769622550_1_alg».proof.Proof.Region0
import proofs.«132641_j9242769622550_1_alg».proof.Proof.Region1
import proofs.«132641_j9242769622550_1_alg».proof.Proof.Region2
import Idealize.ShloMosaic.Lib.StableHlo.Run
import Idealize.ShloMosaic.Lib.Pipeline.Value

set_option maxRecDepth 16384

noncomputable section

namespace Cert.KernelIdeal.NetValue

open Cert.KernelIdeal Cert.KernelIdeal.Gen
open Idealize.ShloMosaic Idealize.ShloMosaic.TcCoe Idealize.SL.Sem Idealize.ShloMosaic.StableHlo
open Cert.ReferenceIdeal.Net (Feat Col Row Edges Mat Bias Mats Biases sources targets invSqrtDegree aggregate weight0 weight1 weight2 bias0 bias1 bias2 denseLayer network)

variable (m : (ℓ : Loc nD τ sig) → Buf (Elt Ideal) ℓ) (ρ : Dev nD → PrngReg)

/-- The argument arrays, and what the host operations make of the edge list. -/
abbrev X (c : Dev nD) : Feat := m ((c.tc : Thread nD τ).loc main_arg0)
abbrev E (c : Dev nD) : Edges := m ((c.tc : Thread nD τ).loc main_arg1)
abbrev WS (c : Dev nD) : Mats := m ((c.tc : Thread nD τ).loc main_arg2)
abbrev BS (c : Dev nD) : Biases := m ((c.tc : Thread nD τ).loc main_arg3)
abbrev S (c : Dev nD) : Row := sources (E m c)
abbrev T (c : Dev nD) : Row := targets (E m c)
abbrev NS (c : Dev nD) : Col := invSqrtDegree (S m c)
abbrev ND (c : Dev nD) : Col := invSqrtDegree (T m c)

/-- The features after each layer. -/
def H0 (c : Dev nD) : Feat := denseLayer (aggregate (X m c) (NS m c) (S m c) (T m c)) (ND m c) (weight0 (WS m c)) (bias0 (BS m c))
def H1 (c : Dev nD) : Feat := denseLayer (aggregate (H0 m c) (NS m c) (S m c) (T m c)) (ND m c) (weight1 (WS m c)) (bias1 (BS m c))
def H2 (c : Dev nD) : Feat := denseLayer (aggregate (H1 m c) (NS m c) (S m c) (T m c)) (ND m c) (weight2 (WS m c)) (bias2 (BS m c))

/-! ## The host operations before the first launch, stretch by stretch, from any valuation `U` -/

open Cert.ReferenceIdeal.Net (degree)

set_option maxHeartbeats 4000000 in
theorem A_src (U : Valuation τ sig (Elt Ideal)) : StableHlo.after hostOps0 U (Proc.devRef .tc main_v1) = sources (U (Proc.devRef .tc main_arg1)) := by
  after_results_simp <;> rfl
set_option maxHeartbeats 4000000 in
theorem A_dst (U : Valuation τ sig (Elt Ideal)) : StableHlo.after hostOps0 U (Proc.devRef .tc main_v3) = targets (U (Proc.devRef .tc main_arg1)) := by
  after_results_simp <;> rfl
set_option maxHeartbeats 4000000 in
theorem A_pos (U : Valuation τ sig (Elt Ideal)) : StableHlo.after hostOps0 U (Proc.devRef .tc main_v12) = cmpf .ogt (degree (sources (U (Proc.devRef .tc main_arg1)))) (broadcastInDim Cert.ReferenceIdeal.S100000 ![] Cert.ReferenceIdeal.Gen.bcast_S_S100000 (constant (F := Ideal) Cert.ReferenceIdeal.S_ .f32 0x00000000#32)) := by
  after_results_simp <;> rfl
set_option maxHeartbeats 4000000 in
theorem A_inv (U : Valuation τ sig (Elt Ideal)) : StableHlo.after hostOps0 U (Proc.devRef .tc main_v15) = Host.rsqrt (maximumf (degree (sources (U (Proc.devRef .tc main_arg1)))) (broadcastInDim Cert.ReferenceIdeal.S100000 ![] Cert.ReferenceIdeal.Gen.bcast_S_S100000 (constant (F := Ideal) Cert.ReferenceIdeal.S_ .f32 0x3F800000#32))) := by
  after_results_simp <;> rfl
set_option maxHeartbeats 4000000 in
theorem A_deg (U : Valuation τ sig (Elt Ideal)) : StableHlo.after hostOps0 U (Proc.devRef .tc main_v10) = degree (targets (U (Proc.devRef .tc main_arg1))) := by
  after_results_simp <;> rfl
set_option maxHeartbeats 4000000 in
theorem A_zero (U : Valuation τ sig (Elt Ideal)) : StableHlo.after hostOps0 U (Proc.devRef .tc main_cst_4) = constant (F := Ideal) Cert.ReferenceIdeal.S_ .f32 0x00000000#32 := by
  after_results_simp <;> rfl
set_option maxHeartbeats 4000000 in
theorem A_arg0 (U : Valuation τ sig (Elt Ideal)) : StableHlo.after hostOps0 U (Proc.devRef .tc main_arg0) = (U (Proc.devRef .tc main_arg0)) := by
  after_results_simp
set_option maxHeartbeats 4000000 in
theorem A_arg2 (U : Valuation τ sig (Elt Ideal)) : StableHlo.after hostOps0 U (Proc.devRef .tc main_arg2) = (U (Proc.devRef .tc main_arg2)) := by
  after_results_simp
set_option maxHeartbeats 4000000 in
theorem A_arg3 (U : Valuation τ sig (Elt Ideal)) : StableHlo.after hostOps0 U (Proc.devRef .tc main_arg3) = (U (Proc.devRef .tc main_arg3)) := by
  after_results_simp
set_option maxHeartbeats 4000000 in
theorem B_sel (U : Valuation τ sig (Elt Ideal)) : StableHlo.after hostOps0_1 U (Proc.devRef .tc main_v16) = select (U (Proc.devRef .tc main_v12)) (U (Proc.devRef .tc main_v15)) (broadcastInDim Cert.ReferenceIdeal.S100000 ![] Cert.ReferenceIdeal.Gen.bcast_S_S100000 (id (U (Proc.devRef .tc main_cst_4)))) := by
  after_results_simp <;> rfl
set_option maxHeartbeats 4000000 in
theorem B_v1 (U : Valuation τ sig (Elt Ideal)) : StableHlo.after hostOps0_1 U (Proc.devRef .tc main_v1) = (U (Proc.devRef .tc main_v1)) := by
  after_results_simp
set_option maxHeartbeats 4000000 in
theorem B_v3 (U : Valuation τ sig (Elt Ideal)) : StableHlo.after hostOps0_1 U (Proc.devRef .tc main_v3) = (U (Proc.devRef .tc main_v3)) := by
  after_results_simp
set_option maxHeartbeats 4000000 in
theorem B_v10 (U : Valuation τ sig (Elt Ideal)) : StableHlo.after hostOps0_1 U (Proc.devRef .tc main_v10) = (U (Proc.devRef .tc main_v10)) := by
  after_results_simp
set_option maxHeartbeats 4000000 in
theorem B_arg0 (U : Valuation τ sig (Elt Ideal)) : StableHlo.after hostOps0_1 U (Proc.devRef .tc main_arg0) = (U (Proc.devRef .tc main_arg0)) := by
  after_results_simp
set_option maxHeartbeats 4000000 in
theorem B_arg2 (U : Valuation τ sig (Elt Ideal)) : StableHlo.after hostOps0_1 U (Proc.devRef .tc main_arg2) = (U (Proc.devRef .tc main_arg2)) := by
  after_results_simp
set_option maxHeartbeats 4000000 in
theorem B_arg3 (U : Valuation τ sig (Elt Ideal)) : StableHlo.after hostOps0_1 U (Proc.devRef .tc main_arg3) = (U (Proc.devRef .tc main_arg3)) := by
  after_results_simp
set_option maxHeartbeats 4000000 in
theorem C_ns (U : Valuation τ sig (Elt Ideal)) : StableHlo.after hostOps0_2 U (Proc.devRef .tc main_v17) = (broadcastInDim Cert.ReferenceIdeal.S100000x1 ![0] Cert.ReferenceIdeal.Gen.bcast_S100000_S100000x1_0 (U (Proc.devRef .tc main_v16))) := by
  after_results_simp <;> rfl
set_option maxHeartbeats 4000000 in
theorem C_pos (U : Valuation τ sig (Elt Ideal)) : StableHlo.after hostOps0_2 U (Proc.devRef .tc main_v19) = cmpf .ogt (U (Proc.devRef .tc main_v10)) (broadcastInDim Cert.ReferenceIdeal.S100000 ![] Cert.ReferenceIdeal.Gen.bcast_S_S100000 (constant (F := Ideal) Cert.ReferenceIdeal.S_ .f32 0x00000000#32)) := by
  after_results_simp <;> rfl
set_option maxHeartbeats 4000000 in
theorem C_inv (U : Valuation τ sig (Elt Ideal)) : StableHlo.after hostOps0_2 U (Proc.devRef .tc main_v22) = Host.rsqrt (maximumf (U (Proc.devRef .tc main_v10)) (broadcastInDim Cert.ReferenceIdeal.S100000 ![] Cert.ReferenceIdeal.Gen.bcast_S_S100000 (constant (F := Ideal) Cert.ReferenceIdeal.S_ .f32 0x3F800000#32))) := by
  after_results_simp <;> rfl
set_option maxHeartbeats 4000000 in
theorem C_zero (U : Valuation τ sig (Elt Ideal)) : StableHlo.after hostOps0_2 U (Proc.devRef .tc main_cst_7) = constant (F := Ideal) Cert.ReferenceIdeal.S_ .f32 0x00000000#32 := by
  after_results_simp <;> rfl
set_option maxHeartbeats 4000000 in
theorem C_v1 (U : Valuation τ sig (Elt Ideal)) : StableHlo.after hostOps0_2 U (Proc.devRef .tc main_v1) = (U (Proc.devRef .tc main_v1)) := by
  after_results_simp
set_option maxHeartbeats 4000000 in
theorem C_v3 (U : Valuation τ sig (Elt Ideal)) : StableHlo.after hostOps0_2 U (Proc.devRef .tc main_v3) = (U (Proc.devRef .tc main_v3)) := by
  after_results_simp
set_option maxHeartbeats 4000000 in
theorem C_arg0 (U : Valuation τ sig (Elt Ideal)) : StableHlo.after hostOps0_2 U (Proc.devRef .tc main_arg0) = (U (Proc.devRef .tc main_arg0)) := by
  after_results_simp
set_option maxHeartbeats 4000000 in
theorem C_arg2 (U : Valuation τ sig (Elt Ideal)) : StableHlo.after hostOps0_2 U (Proc.devRef .tc main_arg2) = (U (Proc.devRef .tc main_arg2)) := by
  after_results_simp
set_option maxHeartbeats 4000000 in
theorem C_arg3 (U : Valuation τ sig (Elt Ideal)) : StableHlo.after hostOps0_2 U (Proc.devRef .tc main_arg3) = (U (Proc.devRef .tc main_arg3)) := by
  after_results_simp
set_option maxHeartbeats 4000000 in
theorem D_sel (U : Valuation τ sig (Elt Ideal)) : StableHlo.after hostOps0_3 U (Proc.devRef .tc main_v23) = select (U (Proc.devRef .tc main_v19)) (U (Proc.devRef .tc main_v22)) (broadcastInDim Cert.ReferenceIdeal.S100000 ![] Cert.ReferenceIdeal.Gen.bcast_S_S100000 (id (U (Proc.devRef .tc main_cst_7)))) := by
  after_results_simp <;> rfl
set_option maxHeartbeats 4000000 in
theorem D_v1 (U : Valuation τ sig (Elt Ideal)) : StableHlo.after hostOps0_3 U (Proc.devRef .tc main_v1) = (U (Proc.devRef .tc main_v1)) := by
  after_results_simp
set_option maxHeartbeats 4000000 in
theorem D_v3 (U : Valuation τ sig (Elt Ideal)) : StableHlo.after hostOps0_3 U (Proc.devRef .tc main_v3) = (U (Proc.devRef .tc main_v3)) := by
  after_results_simp
set_option maxHeartbeats 4000000 in
theorem D_v17 (U : Valuation τ sig (Elt Ideal)) : StableHlo.after hostOps0_3 U (Proc.devRef .tc main_v17) = (U (Proc.devRef .tc main_v17)) := by
  after_results_simp
set_option maxHeartbeats 4000000 in
theorem D_arg0 (U : Valuation τ sig (Elt Ideal)) : StableHlo.after hostOps0_3 U (Proc.devRef .tc main_arg0) = (U (Proc.devRef .tc main_arg0)) := by
  after_results_simp
set_option maxHeartbeats 4000000 in
theorem D_arg2 (U : Valuation τ sig (Elt Ideal)) : StableHlo.after hostOps0_3 U (Proc.devRef .tc main_arg2) = (U (Proc.devRef .tc main_arg2)) := by
  after_results_simp
set_option maxHeartbeats 4000000 in
theorem D_arg3 (U : Valuation τ sig (Elt Ideal)) : StableHlo.after hostOps0_3 U (Proc.devRef .tc main_arg3) = (U (Proc.devRef .tc main_arg3)) := by
  after_results_simp
set_option maxHeartbeats 4000000 in
theorem E_nd (U : Valuation τ sig (Elt Ideal)) : StableHlo.after hostOps0_4 U (Proc.devRef .tc main_v24) = (broadcastInDim Cert.ReferenceIdeal.S100000x1 ![0] Cert.ReferenceIdeal.Gen.bcast_S100000_S100000x1_0 (U (Proc.devRef .tc main_v23))) := by
  after_results_simp <;> rfl
set_option maxHeartbeats 4000000 in
theorem E_agg (U : Valuation τ sig (Elt Ideal)) : StableHlo.after hostOps0_4 U (Proc.devRef .tc main_v36) = aggregate (U (Proc.devRef .tc main_arg0)) (U (Proc.devRef .tc main_v17)) (U (Proc.devRef .tc main_v1)) (U (Proc.devRef .tc main_v3)) := by
  after_results_simp <;> rfl
set_option maxHeartbeats 4000000 in
theorem E_w (U : Valuation τ sig (Elt Ideal)) : StableHlo.after hostOps0_4 U (Proc.devRef .tc main_v38) = weight0 (U (Proc.devRef .tc main_arg2)) := by
  after_results_simp <;> rfl
set_option maxHeartbeats 4000000 in
theorem E_b (U : Valuation τ sig (Elt Ideal)) : StableHlo.after hostOps0_4 U (Proc.devRef .tc main_v40) = bias0 (U (Proc.devRef .tc main_arg3)) := by
  after_results_simp <;> rfl
set_option maxHeartbeats 4000000 in
theorem E_v1 (U : Valuation τ sig (Elt Ideal)) : StableHlo.after hostOps0_4 U (Proc.devRef .tc main_v1) = (U (Proc.devRef .tc main_v1)) := by
  after_results_simp
set_option maxHeartbeats 4000000 in
theorem E_v3 (U : Valuation τ sig (Elt Ideal)) : StableHlo.after hostOps0_4 U (Proc.devRef .tc main_v3) = (U (Proc.devRef .tc main_v3)) := by
  after_results_simp
set_option maxHeartbeats 4000000 in
theorem E_v17 (U : Valuation τ sig (Elt Ideal)) : StableHlo.after hostOps0_4 U (Proc.devRef .tc main_v17) = (U (Proc.devRef .tc main_v17)) := by
  after_results_simp
set_option maxHeartbeats 4000000 in
theorem E_arg2 (U : Valuation τ sig (Elt Ideal)) : StableHlo.after hostOps0_4 U (Proc.devRef .tc main_arg2) = (U (Proc.devRef .tc main_arg2)) := by
  after_results_simp
set_option maxHeartbeats 4000000 in
theorem E_arg3 (U : Valuation τ sig (Elt Ideal)) : StableHlo.after hostOps0_4 U (Proc.devRef .tc main_arg3) = (U (Proc.devRef .tc main_arg3)) := by
  after_results_simp

/-! ## Before the first launch: the stretches composed -/

theorem W1_src (c : Dev nD) : W1 m ρ c (Proc.devRef .tc main_v1) = S m c :=
  A_src (W0 m ρ c)
theorem W2_src (c : Dev nD) : W2 m ρ c (Proc.devRef .tc main_v1) = S m c :=
  (B_v1 (W1 m ρ c)).trans (W1_src m ρ c)
theorem W3_src (c : Dev nD) : W3 m ρ c (Proc.devRef .tc main_v1) = S m c :=
  (C_v1 (W2 m ρ c)).trans (W2_src m ρ c)
theorem W4_src (c : Dev nD) : W4 m ρ c (Proc.devRef .tc main_v1) = S m c :=
  (D_v1 (W3 m ρ c)).trans (W3_src m ρ c)
theorem W5_src (c : Dev nD) : W5 m ρ c (Proc.devRef .tc main_v1) = S m c :=
  (E_v1 (W4 m ρ c)).trans (W4_src m ρ c)
theorem W1_dst (c : Dev nD) : W1 m ρ c (Proc.devRef .tc main_v3) = T m c :=
  A_dst (W0 m ρ c)
theorem W2_dst (c : Dev nD) : W2 m ρ c (Proc.devRef .tc main_v3) = T m c :=
  (B_v3 (W1 m ρ c)).trans (W1_dst m ρ c)
theorem W3_dst (c : Dev nD) : W3 m ρ c (Proc.devRef .tc main_v3) = T m c :=
  (C_v3 (W2 m ρ c)).trans (W2_dst m ρ c)
theorem W4_dst (c : Dev nD) : W4 m ρ c (Proc.devRef .tc main_v3) = T m c :=
  (D_v3 (W3 m ρ c)).trans (W3_dst m ρ c)
theorem W5_dst (c : Dev nD) : W5 m ρ c (Proc.devRef .tc main_v3) = T m c :=
  (E_v3 (W4 m ρ c)).trans (W4_dst m ρ c)
theorem W1_ws (c : Dev nD) : W1 m ρ c (Proc.devRef .tc main_arg2) = WS m c :=
  A_arg2 (W0 m ρ c)
theorem W2_ws (c : Dev nD) : W2 m ρ c (Proc.devRef .tc main_arg2) = WS m c :=
  (B_arg2 (W1 m ρ c)).trans (W1_ws m ρ c)
theorem W3_ws (c : Dev nD) : W3 m ρ c (Proc.devRef .tc main_arg2) = WS m c :=
  (C_arg2 (W2 m ρ c)).trans (W2_ws m ρ c)
theorem W4_ws (c : Dev nD) : W4 m ρ c (Proc.devRef .tc main_arg2) = WS m c :=
  (D_arg2 (W3 m ρ c)).trans (W3_ws m ρ c)
theorem W5_ws (c : Dev nD) : W5 m ρ c (Proc.devRef .tc main_arg2) = WS m c :=
  (E_arg2 (W4 m ρ c)).trans (W4_ws m ρ c)
theorem W1_bs (c : Dev nD) : W1 m ρ c (Proc.devRef .tc main_arg3) = BS m c :=
  A_arg3 (W0 m ρ c)
theorem W2_bs (c : Dev nD) : W2 m ρ c (Proc.devRef .tc main_arg3) = BS m c :=
  (B_arg3 (W1 m ρ c)).trans (W1_bs m ρ c)
theorem W3_bs (c : Dev nD) : W3 m ρ c (Proc.devRef .tc main_arg3) = BS m c :=
  (C_arg3 (W2 m ρ c)).trans (W2_bs m ρ c)
theorem W4_bs (c : Dev nD) : W4 m ρ c (Proc.devRef .tc main_arg3) = BS m c :=
  (D_arg3 (W3 m ρ c)).trans (W3_bs m ρ c)
theorem W5_bs (c : Dev nD) : W5 m ρ c (Proc.devRef .tc main_arg3) = BS m c :=
  (E_arg3 (W4 m ρ c)).trans (W4_bs m ρ c)
theorem W1_x (c : Dev nD) : W1 m ρ c (Proc.devRef .tc main_arg0) = X m c :=
  A_arg0 (W0 m ρ c)
theorem W2_x (c : Dev nD) : W2 m ρ c (Proc.devRef .tc main_arg0) = X m c :=
  (B_arg0 (W1 m ρ c)).trans (W1_x m ρ c)
theorem W3_x (c : Dev nD) : W3 m ρ c (Proc.devRef .tc main_arg0) = X m c :=
  (C_arg0 (W2 m ρ c)).trans (W2_x m ρ c)
theorem W4_x (c : Dev nD) : W4 m ρ c (Proc.devRef .tc main_arg0) = X m c :=
  (D_arg0 (W3 m ρ c)).trans (W3_x m ρ c)
/-- The source column: the called function's select of the compare, the inverse root and the zero. -/
theorem W3_ns (c : Dev nD) : W3 m ρ c (Proc.devRef .tc main_v17) = NS m c := by
  refine (C_ns (W2 m ρ c)).trans ?_
  rw [(show W2 m ρ c (Proc.devRef .tc main_v16) = _ from B_sel (W1 m ρ c)), (show W1 m ρ c (Proc.devRef .tc main_v12) = _ from A_pos (W0 m ρ c)), (show W1 m ρ c (Proc.devRef .tc main_v15) = _ from A_inv (W0 m ρ c)), (show W1 m ρ c (Proc.devRef .tc main_cst_4) = _ from A_zero (W0 m ρ c))]
  rfl
theorem W4_ns (c : Dev nD) : W4 m ρ c (Proc.devRef .tc main_v17) = NS m c := (D_v17 (W3 m ρ c)).trans (W3_ns m ρ c)
theorem W5_ns (c : Dev nD) : W5 m ρ c (Proc.devRef .tc main_v17) = NS m c := (E_v17 (W4 m ρ c)).trans (W4_ns m ρ c)
theorem W2_deg (c : Dev nD) : W2 m ρ c (Proc.devRef .tc main_v10) = Cert.ReferenceIdeal.Net.degree (T m c) :=
  (B_v10 (W1 m ρ c)).trans (A_deg (W0 m ρ c))
/-- The destination column: the same from the destination row's degree. -/
theorem W5_nd (c : Dev nD) : W5 m ρ c (Proc.devRef .tc main_v24) = ND m c := by
  refine (E_nd (W4 m ρ c)).trans ?_
  rw [(show W4 m ρ c (Proc.devRef .tc main_v23) = _ from D_sel (W3 m ρ c)), (show W3 m ρ c (Proc.devRef .tc main_v19) = _ from C_pos (W2 m ρ c)), (show W3 m ρ c (Proc.devRef .tc main_v22) = _ from C_inv (W2 m ρ c)), (show W3 m ρ c (Proc.devRef .tc main_cst_7) = _ from C_zero (W2 m ρ c)), W2_deg]
  rfl
theorem W5_agg (c : Dev nD) : W5 m ρ c (Proc.devRef .tc main_v36) = aggregate (X m c) (NS m c) (S m c) (T m c) := by
  refine (E_agg (W4 m ρ c)).trans ?_
  rw [W4_x, W4_ns, W4_src, W4_dst]
theorem W5_w (c : Dev nD) : W5 m ρ c (Proc.devRef .tc main_v38) = weight0 (WS m c) := by
  refine (E_w (W4 m ρ c)).trans ?_
  rw [W4_ws]
theorem W5_b (c : Dev nD) : W5 m ρ c (Proc.devRef .tc main_v40) = bias0 (BS m c) := by
  refine (E_b (W4 m ρ c)).trans ?_
  rw [W4_bs]

/-! ## Across launch 0 -/

theorem W6_out (c : Dev nD) : W6 m ρ c (Proc.devRef .tc main_v41) = H0 m c := by
  refine ((W6_arr m ρ c 4).trans (RegionValue.final0 (V5 m ρ) c)).trans ?_
  show NormedDense.stage (W5 m ρ c (Proc.devRef .tc main_v36)) (W5 m ρ c (Proc.devRef .tc main_v24)) (W5 m ρ c (Proc.devRef .tc main_v38)) (W5 m ρ c (Proc.devRef .tc main_v40)) = _
  rw [W5_agg, W5_nd, W5_w, W5_b]
  rfl
theorem W6_nd (c : Dev nD) : W6 m ρ c (Proc.devRef .tc main_v24) = ND m c :=
  ((W6_arr m ρ c 1).trans (((dat0 (V5 m ρ) c).arrAt_in 1 rfl cfg0.N).trans (A_eq0 (V5 m ρ) c 1))).trans (W5_nd m ρ c)
theorem W6_src (c : Dev nD) : W6 m ρ c (Proc.devRef .tc main_v1) = S m c :=
  (W6_of_ne m ρ c main_v1 (by decide)).trans (W5_src m ρ c)
theorem W6_dst (c : Dev nD) : W6 m ρ c (Proc.devRef .tc main_v3) = T m c :=
  (W6_of_ne m ρ c main_v3 (by decide)).trans (W5_dst m ρ c)
theorem W6_ns (c : Dev nD) : W6 m ρ c (Proc.devRef .tc main_v17) = NS m c :=
  (W6_of_ne m ρ c main_v17 (by decide)).trans (W5_ns m ρ c)
theorem W6_ws (c : Dev nD) : W6 m ρ c (Proc.devRef .tc main_arg2) = WS m c :=
  (W6_of_ne m ρ c main_arg2 (by decide)).trans (W5_ws m ρ c)
theorem W6_bs (c : Dev nD) : W6 m ρ c (Proc.devRef .tc main_arg3) = BS m c :=
  (W6_of_ne m ρ c main_arg3 (by decide)).trans (W5_bs m ρ c)

/-! ## Between launches 0 and 1 -/

set_option maxHeartbeats 4000000 in
theorem W7_agg (c : Dev nD) : W7 m ρ c (Proc.devRef .tc main_v53) = aggregate (H0 m c) (NS m c) (S m c) (T m c) := by
  show StableHlo.after hostOps1 (W6 m ρ c) _ = _
  after_results_simp
  rw [W6_out, W6_ns, W6_src, W6_dst]
  try rfl
set_option maxHeartbeats 4000000 in
theorem W7_w (c : Dev nD) : W7 m ρ c (Proc.devRef .tc main_v55) = weight1 (WS m c) := by
  show StableHlo.after hostOps1 (W6 m ρ c) _ = _
  after_results_simp
  rw [W6_ws]
  try rfl
set_option maxHeartbeats 4000000 in
theorem W7_b (c : Dev nD) : W7 m ρ c (Proc.devRef .tc main_v57) = bias1 (BS m c) := by
  show StableHlo.after hostOps1 (W6 m ρ c) _ = _
  after_results_simp
  rw [W6_bs]
  try rfl
set_option maxHeartbeats 4000000 in
theorem W7_nd (c : Dev nD) : W7 m ρ c (Proc.devRef .tc main_v24) = ND m c := by
  show StableHlo.after hostOps1 (W6 m ρ c) _ = _
  after_results_simp
  rw [W6_nd]
  try rfl
set_option maxHeartbeats 4000000 in
theorem W7_src (c : Dev nD) : W7 m ρ c (Proc.devRef .tc main_v1) = S m c := by
  show StableHlo.after hostOps1 (W6 m ρ c) _ = _
  after_results_simp
  rw [W6_src]
  try rfl
set_option maxHeartbeats 4000000 in
theorem W7_dst (c : Dev nD) : W7 m ρ c (Proc.devRef .tc main_v3) = T m c := by
  show StableHlo.after hostOps1 (W6 m ρ c) _ = _
  after_results_simp
  rw [W6_dst]
  try rfl
set_option maxHeartbeats 4000000 in
theorem W7_ns (c : Dev nD) : W7 m ρ c (Proc.devRef .tc main_v17) = NS m c := by
  show StableHlo.after hostOps1 (W6 m ρ c) _ = _
  after_results_simp
  rw [W6_ns]
  try rfl
set_option maxHeartbeats 4000000 in
theorem W7_ws (c : Dev nD) : W7 m ρ c (Proc.devRef .tc main_arg2) = WS m c := by
  show StableHlo.after hostOps1 (W6 m ρ c) _ = _
  after_results_simp
  rw [W6_ws]
  try rfl
set_option maxHeartbeats 4000000 in
theorem W7_bs (c : Dev nD) : W7 m ρ c (Proc.devRef .tc main_arg3) = BS m c := by
  show StableHlo.after hostOps1 (W6 m ρ c) _ = _
  after_results_simp
  rw [W6_bs]
  try rfl

/-! ## Across launch 1 -/

theorem W8_out (c : Dev nD) : W8 m ρ c (Proc.devRef .tc main_v58) = H1 m c := by
  refine ((W8_arr m ρ c 4).trans (RegionValue.final1 (V7 m ρ) c)).trans ?_
  show NormedDense.stage (W7 m ρ c (Proc.devRef .tc main_v53)) (W7 m ρ c (Proc.devRef .tc main_v24)) (W7 m ρ c (Proc.devRef .tc main_v55)) (W7 m ρ c (Proc.devRef .tc main_v57)) = _
  rw [W7_agg, W7_nd, W7_w, W7_b]
  rfl
theorem W8_nd (c : Dev nD) : W8 m ρ c (Proc.devRef .tc main_v24) = ND m c :=
  ((W8_arr m ρ c 1).trans (((dat1 (V7 m ρ) c).arrAt_in 1 rfl cfg1.N).trans (A_eq1 (V7 m ρ) c 1))).trans (W7_nd m ρ c)
theorem W8_src (c : Dev nD) : W8 m ρ c (Proc.devRef .tc main_v1) = S m c :=
  (W8_of_ne m ρ c main_v1 (by decide)).trans (W7_src m ρ c)
theorem W8_dst (c : Dev nD) : W8 m ρ c (Proc.devRef .tc main_v3) = T m c :=
  (W8_of_ne m ρ c main_v3 (by decide)).trans (W7_dst m ρ c)
theorem W8_ns (c : Dev nD) : W8 m ρ c (Proc.devRef .tc main_v17) = NS m c :=
  (W8_of_ne m ρ c main_v17 (by decide)).trans (W7_ns m ρ c)
theorem W8_ws (c : Dev nD) : W8 m ρ c (Proc.devRef .tc main_arg2) = WS m c :=
  (W8_of_ne m ρ c main_arg2 (by decide)).trans (W7_ws m ρ c)
theorem W8_bs (c : Dev nD) : W8 m ρ c (Proc.devRef .tc main_arg3) = BS m c :=
  (W8_of_ne m ρ c main_arg3 (by decide)).trans (W7_bs m ρ c)

/-! ## Between launches 1 and 2 -/

set_option maxHeartbeats 4000000 in
theorem W9_agg (c : Dev nD) : W9 m ρ c (Proc.devRef .tc main_v70) = aggregate (H1 m c) (NS m c) (S m c) (T m c) := by
  show StableHlo.after hostOps2 (W8 m ρ c) _ = _
  after_results_simp
  rw [W8_out, W8_ns, W8_src, W8_dst]
  try rfl
set_option maxHeartbeats 4000000 in
theorem W9_w (c : Dev nD) : W9 m ρ c (Proc.devRef .tc main_v72) = weight2 (WS m c) := by
  show StableHlo.after hostOps2 (W8 m ρ c) _ = _
  after_results_simp
  rw [W8_ws]
  try rfl
set_option maxHeartbeats 4000000 in
theorem W9_b (c : Dev nD) : W9 m ρ c (Proc.devRef .tc main_v74) = bias2 (BS m c) := by
  show StableHlo.after hostOps2 (W8 m ρ c) _ = _
  after_results_simp
  rw [W8_bs]
  try rfl
set_option maxHeartbeats 4000000 in
theorem W9_nd (c : Dev nD) : W9 m ρ c (Proc.devRef .tc main_v24) = ND m c := by
  show StableHlo.after hostOps2 (W8 m ρ c) _ = _
  after_results_simp
  rw [W8_nd]
  try rfl

/-! ## The third launch: the result -/

theorem W10_out (c : Dev nD) : W10 m ρ c (Proc.devRef .tc main_v75) = H2 m c := by
  refine ((W10_arr m ρ c 4).trans (RegionValue.final2 (V9 m ρ) c)).trans ?_
  show NormedDense.stage (W9 m ρ c (Proc.devRef .tc main_v70)) (W9 m ρ c (Proc.devRef .tc main_v24)) (W9 m ρ c (Proc.devRef .tc main_v72)) (W9 m ρ c (Proc.devRef .tc main_v74)) = _
  rw [W9_agg, W9_nd, W9_w, W9_b]
  rfl

/-- The last layer's features are the network over the dense stage. -/
theorem H2_eq (c : Dev nD) : H2 m c = network denseLayer (X m c) (E m c) (WS m c) (BS m c) := rfl

/-- The run of the kernel program: the result array ends at the network over the dense stage of the argument arrays. -/
theorem run : θ_run defs (onTc (τ := τ) (main (F := Ideal))) ⟨m, fun _ => 0, ρ⟩ (fun r => ∀ c : Dev nD,
      r.2.mem ((c.tc : Thread nD τ).loc main_v75) = network denseLayer (X m c) (E m c) (WS m c) (BS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans ((W10_out m ρ c).trans (H2_eq m c)), (h c).2⟩) (RunValue.run_main m ρ)

end Cert.KernelIdeal.NetValue

end
-- ==== Proof.RefValue.lean ====
/-
  What the reference program's result array holds: the same network.

  The reference is host operations only; its run ends with the result buffer at the operations' composed term of the
  argument arrays. That term is, sub-term for sub-term, the network over the host's spelling of the dense stage; and
  the host's spelling is the dense stage read entry by entry.
-/
import proofs.«132641_j9242769622550_1_alg».proof.Proof.RefRun
import proofs.«132641_j9242769622550_1_alg».proof.Proof.Net

set_option maxRecDepth 16384

noncomputable section

namespace Cert.ReferenceIdeal.NetValue

open Cert.ReferenceIdeal Cert.ReferenceIdeal.Gen Cert.ReferenceIdeal.Net
open Idealize.ShloMosaic Idealize.ShloMosaic.TcCoe Idealize.SL.Sem

variable (m : (ℓ : Loc nD τ sig) → Buf (Elt Ideal) ℓ) (ρ : Dev nD → PrngReg)

set_option maxHeartbeats 4000000 in
/-- The composed term of the reference's operations is the network over the host's dense stage. -/
theorem res_eq (c : Dev nD) :
    ValueP.res_main_v93 (F := Ideal) m c
      = network hostLayer (m ((c.tc : Thread nD τ).loc main_arg0)) (m ((c.tc : Thread nD τ).loc main_arg1))
          (m ((c.tc : Thread nD τ).loc main_arg2)) (m ((c.tc : Thread nD τ).loc main_arg3)) := by
  unfold ValueP.res_main_v93
  rfl

/-- The run of the reference: the result array ends at the network over the dense stage of the argument arrays. -/
theorem run : θ_run defs (onTc (τ := τ) (main (F := Ideal))) ⟨m, fun _ => 0, ρ⟩ (fun r => ∀ c : Dev nD,
      r.2.mem ((c.tc : Thread nD τ).loc main_v93)
        = network denseLayer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun r h c => ⟨(h c).1.trans ((res_eq m c).trans (by rw [hostLayer_eq])), (h c).2⟩)
    (ValueP.run (F := Ideal) m ρ)

end Cert.ReferenceIdeal.NetValue

end
-- ==== Proof.lean ====
/-
  Three layers of a graph convolution: the tiled kernel program against the host reference, on the extended reals.

  Both programs compute, from node features `x`, an edge list, three weight matrices and three biases, the same
  network: degrees of the source and destination rows, their inverse square roots, and three times "aggregate the
  source-scaled features along the edges, scale by the destination column, multiply by the weights, add the bias,
  rectify". They differ only in the dense half of a layer, which the kernel program runs as a launch over twenty row
  tiles with the factors narrowed to a shorter float format, and the reference as whole-array host operations. On the
  extended reals narrowing is the identity and a matrix product accumulated into zero is the plain sum, so each
  launch's output array is the dense stage of its inputs (the tiles fill the array), which is also what the host's
  spelling computes entry by entry; the irregular half is the same host operations on both sides. No law beyond that
  is used, so the inputs' finiteness is never opened. The word-level kernel and the idealized one run by the
  generated frame; the reference's frame is its run with the result dropped; nothing was rewritten by the
  idealization, so that conjunct is trivial.
-/
import proofs.«132641_j9242769622550_1_alg».proof.Defs
import proofs.«132641_j9242769622550_1_alg».proof.Proof.Gen.Kernel
import proofs.«132641_j9242769622550_1_alg».proof.Proof.Gen.Kernel.Skeleton
import proofs.«132641_j9242769622550_1_alg».proof.Proof.Gen.Kernel.Launch
import proofs.«132641_j9242769622550_1_alg».proof.Proof.Gen.Kernel.Points
import proofs.«132641_j9242769622550_1_alg».proof.Proof.Gen.Kernel.Frame
import proofs.«132641_j9242769622550_1_alg».proof.Proof.Gen.KernelIdeal
import proofs.«132641_j9242769622550_1_alg».proof.Proof.Gen.KernelIdeal.Skeleton
import proofs.«132641_j9242769622550_1_alg».proof.Proof.Gen.KernelIdeal.Launch
import proofs.«132641_j9242769622550_1_alg».proof.Proof.Gen.KernelIdeal.Points
import proofs.«132641_j9242769622550_1_alg».proof.Proof.Gen.KernelIdeal.Frame
import proofs.«132641_j9242769622550_1_alg».proof.Proof.Gen.ReferenceIdeal
import proofs.«132641_j9242769622550_1_alg».proof.Proof.Gen.Pre_finite_inputs
import proofs.«132641_j9242769622550_1_alg».proof.Proof.NetValue
import proofs.«132641_j9242769622550_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both result arrays end at the network over the dense stage, of argument arrays that agree. -/
theorem algebraic : Cert.algebraic_KernelIdeal_ReferenceIdeal := by
  intro m ρ m' ρ' _ hagree
  refine ⟨_, Cert.KernelIdeal.NetValue.run m ρ, ?_⟩
  refine (θ_run Cert.ReferenceIdeal.defs _ _).mono (fun _ h c => ⟨(h c).1.trans ?_, (h c).2⟩)
    (Cert.ReferenceIdeal.NetValue.run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
